-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x64 : Shape := ⟨2, ![256, 64]⟩
abbrev S64 : Shape := ⟨1, ![64]⟩
abbrev S64x40 : Shape := ⟨2, ![64, 40]⟩
abbrev S40 : Shape := ⟨1, ![40]⟩
abbrev S2x1600000 : Shape := ⟨2, ![2, 1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x256 .f32) (main_arg1 : FVec F S256x64 .f32) (main_arg2 : FVec F S64 .f32) (main_arg3 : FVec F S64x40 .f32) (main_arg4 : FVec F S40 .f32) (main_arg5 : IVec S2x1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg3
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg4 main_v13 main_v16
-- ==== Kernel.lean ====
abbrev S100000x256 : Shape := ⟨2, ![100000, 256]⟩
abbrev S256x64 : Shape := ⟨2, ![256, 64]⟩
abbrev S64 : Shape := ⟨1, ![64]⟩
abbrev S64x40 : Shape := ⟨2, ![64, 40]⟩
abbrev S40 : Shape := ⟨1, ![40]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x256 : Shape := ⟨2, ![5000, 256]⟩
abbrev S5000x64 : Shape := ⟨2, ![5000, 64]⟩
abbrev S1700000x64 : Shape := ⟨2, ![1700000, 64]⟩
abbrev S1x64 : Shape := ⟨2, ![1, 64]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩

abbrev nBuf : Space → Nat
  | .hbm => 101
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S64, .f32⟩
  | .hbm, ⟨3, _⟩ => ⟨S64x40, .f32⟩
  | .hbm, ⟨4, _⟩ => ⟨S40, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S100000x64, .f32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x64, .f32⟩
  | .hbm, ⟨49, _⟩ => ⟨S1700000x1, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x40, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000, .f32⟩
  | .hbm, ⟨81, _⟩ => ⟨S1700000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000x40, .f32⟩
  | .hbm, ⟨91, _⟩ => ⟨S1700000x1, .f32⟩
  | .hbm, ⟨92, _⟩ => ⟨S1700000x40, .f32⟩
  | .hbm, ⟨93, _⟩ => ⟨S1700000x40, .f32⟩
  | .hbm, ⟨94, _⟩ => ⟨S_, .f32⟩
  | .hbm, ⟨95, _⟩ => ⟨S100000x40, .f32⟩
  | .hbm, ⟨96, _⟩ => ⟨S1700000x1, .i32⟩
  | .hbm, ⟨97, _⟩ => ⟨S100000x40, .f32⟩
  | .hbm, ⟨98, _⟩ => ⟨S1x40, .f32⟩
  | .hbm, ⟨99, _⟩ => ⟨S100000x40, .f32⟩
  | .hbm, ⟨100, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x40, .f32⟩
  | .local _ .vmem, ⟨8, _⟩ => ⟨S5000x40, .f32⟩
  | .local _ .vmem, ⟨9, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  dot_S5000x256_S256x64_S5000x64_1_0_0_1_n_n_wf : DotDims.WF S5000x256 S256x64 S5000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x40_S5000x40_1_0_0_1_n_n_wf : DotDims.WF S5000x64 S64x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x40.size a ≤ S64x40.size a
  hwx1_1 : ∀ i : grid1.Coords, EltTy.bits .f32 = 32 ∨ (Rect.block (s := S64x40) S64x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S100000x40.size a
  hwx1_2 : ∀ i : grid1.Coords, EltTy.bits .f32 = 32 ∨ (Rect.block (s := S100000x40) S5000x40.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S256x64 : Shape := ⟨2, ![256, 64]⟩
abbrev S64 : Shape := ⟨1, ![64]⟩
abbrev S64x40 : Shape := ⟨2, ![64, 40]⟩
abbrev S40 : Shape := ⟨1, ![40]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 101
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S64, .f32⟩
  | .hbm, ⟨3, _⟩ => ⟨S64x40, .f32⟩
  | .hbm, ⟨4, _⟩ => ⟨S40, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S100000x64, .f32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x64, .f32⟩
  | .hbm, ⟨49, _⟩ => ⟨S1700000x1, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x40, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000, .f32⟩
  | .hbm, ⟨81, _⟩ => ⟨S1700000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000x40, .f32⟩
  | .hbm, ⟨91, _⟩ => ⟨S1700000x1, .f32⟩
  | .hbm, ⟨92, _⟩ => ⟨S1700000x40, .f32⟩
  | .hbm, ⟨93, _⟩ => ⟨S1700000x40, .f32⟩
  | .hbm, ⟨94, _⟩ => ⟨S_, .f32⟩
  | .hbm, ⟨95, _⟩ => ⟨S100000x40, .f32⟩
  | .hbm, ⟨96, _⟩ => ⟨S1700000x1, .i32⟩
  | .hbm, ⟨97, _⟩ => ⟨S100000x40, .f32⟩
  | .hbm, ⟨98, _⟩ => ⟨S1x40, .f32⟩
  | .hbm, ⟨99, _⟩ => ⟨S100000x40, .f32⟩
  | .hbm, ⟨100, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  dot_S100000x256_S256x64_S100000x64_1_0_0_1_n_n_wf : DotDims.WF S100000x256 S256x64 S100000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel program's run, read at the result.

  The program is a chain of six segments: host operations, the first matrix-product region, host operations
  (the first layer's message passing, then the rectifier), the second matrix-product region, host operations
  (the second layer's message passing).  Every weakly fair execution terminates with every unscoped buffer at the
  last segment boundary's contents — the fold `Gen.W6` of the six segments over the launch memory.  In particular
  the result array ends at `Gen.W6` read at the result's buffer, and the six arguments end as launched.
-/
import proofs.«168625_j44461501448279_1_alg».proof.Proof.KernelIdealRunKit

noncomputable section

namespace Cert.KernelIdeal.RunValue

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The result array ends at the last boundary's contents, and the arguments as launched. -/
theorem run_main : θ_run defs (onTc (τ := τ) (main (F := F))) ⟨m, fun _ => 0, ρ⟩ (fun r => ∀ c : Dev nD,
      r.2.mem ((c.tc : Thread nD τ).loc main_v76) = W6 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Cert.KernelIdeal.GenP.run_reads m ρ fun s h c =>
    ⟨h c _ (mem_uc main_v76 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩

end Cert.KernelIdeal.RunValue

end
-- ==== Proof.LibRowColumn.lean ====
/-
  Row-by-column products on the extended reals.

  For a contraction whose dimension numbers say "rows of the left operand against columns of the right" — one
  contracted axis, the left's second and the right's first, no batch axis — both the accumulating matrix product of a
  kernel (into a zero accumulator) and the host's general dot product, read at the output entry (r, c), are the plain
  sum over k of left (r, k) times right (k, c).  The four hypotheses say exactly that about the dimension numbers'
  operand indices; they hold by computation for each concrete record.
-/
import Idealize.ShloMosaic.PureOps.Ideal.Laws
import Idealize.ShloMosaic.Lib.ValueIdx

noncomputable section

namespace Cert.Lib.RowColumn

open Idealize.ShloMosaic Idealize.ShloMosaic.ValueIdx

variable {M K N : Nat} {φ₁ φ₂ : FTy}

/-- The operand indices of a rows-against-columns contraction, re-indexed by the one contracted coordinate. -/
theorem operand_indices (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (i : (⟨2, ![M, N]⟩ : Shape).Idx) (k : Fin K) :
    d.lhsIdx i ((contrEquiv1 d K hr hs).symm k) = ix2 (i 0) k ∧ d.rhsIdx i ((contrEquiv1 d K hr hs).symm k) = ix2 k (i 1) := by
  have hk := contrEquiv1_symm_val d K hr hs k
  refine ⟨funext fun a => Fin.ext ?_, funext fun a => Fin.ext ?_⟩
  · match a with
    | ⟨0, _⟩ => exact h1 _ _
    | ⟨1, _⟩ => exact (h2 _ _).trans hk
  · match a with
    | ⟨0, _⟩ => exact (h3 _ _).trans hk
    | ⟨1, _⟩ => exact h4 _ _

/-- The host's general dot product at an entry is the sum of the row's products with the column. -/
theorem dotGeneral_entry (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision) (sched : HostSchedule)
    (x : FVec Ideal (⟨2, ![M, K]⟩ : Shape) φ₁) (w : FVec Ideal (⟨2, ![K, N]⟩ : Shape) φ₂) (i : (⟨2, ![M, N]⟩ : Shape).Idx) :
    FloatOps.dotGeneral d prec sched x w i = ∑ k : Fin K, x (ix2 (i 0) k) * w (ix2 k (i 1)) := by
  rw [Ideal.dotGeneral_apply, ← Equiv.sum_comp (contrEquiv1 d K hr hs).symm]
  refine Finset.sum_congr rfl fun k _ => ?_
  obtain ⟨el, er⟩ := operand_indices d hr hs h1 h2 h3 h4 i k
  rw [el, er]
  rfl

/-- A kernel's matrix product into the zero accumulator, at an entry, is the same sum. -/
theorem matmul_zero_entry (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision)
    (x : FVec Ideal (⟨2, ![M, K]⟩ : Shape) φ₁) (w : FVec Ideal (⟨2, ![K, N]⟩ : Shape) φ₂) (i : (⟨2, ![M, N]⟩ : Shape).Idx) :
    FloatOps.matmul d prec x w (constant (F := Ideal) (⟨2, ![M, N]⟩ : Shape) .f32 0x00000000#32) i
      = ∑ k : Fin K, x (ix2 (i 0) k) * w (ix2 k (i 1)) := by
  rw [Ideal.matmul_constant_zero_apply, ← Equiv.sum_comp (contrEquiv1 d K hr hs).symm]
  refine Finset.sum_congr rfl fun k _ => ?_
  obtain ⟨el, er⟩ := operand_indices d hr hs h1 h2 h3 h4 i k
  rw [el, er]
  rfl

/-- The whole row-by-column product of an [M, K] array and a [K, N] array, entry by entry. -/
def rowsTimes (x : (⟨2, ![M, K]⟩ : Shape).Idx → EReal) (w : (⟨2, ![K, N]⟩ : Shape).Idx → EReal) : (⟨2, ![M, N]⟩ : Shape).Idx → EReal :=
  fun i => ∑ k : Fin K, x (ix2 (i 0) k) * w (ix2 k (i 1))

/-- The host's general dot product of two whole arrays IS their row-by-column product. -/
theorem dotGeneral_eq_rowsTimes (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision) (sched : HostSchedule)
    (x : FVec Ideal (⟨2, ![M, K]⟩ : Shape) φ₁) (w : FVec Ideal (⟨2, ![K, N]⟩ : Shape) φ₂) :
    FloatOps.dotGeneral d prec sched x w = rowsTimes (M := M) (K := K) (N := N) x w :=
  funext fun i => dotGeneral_entry d hr hs h1 h2 h3 h4 prec sched x w i

/-- A kernel's matrix product of two whole blocks into the zero accumulator IS their row-by-column product. -/
theorem matmul_zero_eq_rowsTimes (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision)
    (x : FVec Ideal (⟨2, ![M, K]⟩ : Shape) φ₁) (w : FVec Ideal (⟨2, ![K, N]⟩ : Shape) φ₂) :
    FloatOps.matmul d prec x w (constant (F := Ideal) (⟨2, ![M, N]⟩ : Shape) .f32 0x00000000#32)
      = rowsTimes (M := M) (K := K) (N := N) x w :=
  funext fun i => matmul_zero_entry d hr hs h1 h2 h3 h4 prec x w i

end Cert.Lib.RowColumn

end
-- ==== Proof.Region0.lean ====
/-
  Region 0: the array the pipelined matrix product leaves is the row-by-column product of its two operand arrays.

  The grid has 20 points.  Point t multiplies rows 5000·t … 5000·t + 4999 of the left operand (a [5000, 256] block)
  by the whole right operand (the one [256, 64] block, the same at every point) and writes the [5000, 64] result back as rows
  5000·t … 5000·t + 4999 of the output.  On the extended reals the rounding of both blocks to bf16 is the identity
  and the product into a zero accumulator is the plain sum over the contracted coordinate, so what point t writes
  back is block t of ONE function of the whole arrays, `rowsTimes left right`; the 20 blocks tile the output.
  Everything is stated at the region's entry contents `V`, whatever they are.
-/
import proofs.«168625_j44461501448279_1_alg».proof.Proof.Gen.KernelIdeal.Frame
import proofs.«168625_j44461501448279_1_alg».proof.Proof.LibRowColumn
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Lib.RowColumn

variable (V : (c : Dev nD) → (b : Ref sig .tc) → Buf (Elt Ideal) ((c : Thread nD τ).loc b))

theorem hz : (![0, 0] : Fin 2 → Nat) = fun _ => 0 := funext fun a => by fin_cases a <;> rfl

/-! ## The block product at an entry -/

/-- The contraction's dimension numbers: output row from the left operand's rows, -/
theorem lhs_row (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
/-- the left operand's column is the contracted coordinate, -/
theorem lhs_col (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
/-- so is the right operand's row, -/
theorem rhs_row (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
/-- and the output column comes from the right operand's columns. -/
theorem rhs_col (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- What the body stores, at entry (p, q) of the block: the sum over k of left (p, k) · right (k, q). -/
theorem product_block (x0 : Vec Ideal S5000x256 .f32) (x1 : Vec Ideal S256x64 .f32) (y : S5000x64.Idx) :
    k0_pay1 (F := Ideal) x0 x1 y = ∑ k : Fin 256, x0 (ix2 (y 0) k) * x1 (ix2 k (y 1)) := by
  unfold k0_pay1
  exact matmul_zero_entry (M := 5000) (K := 256) (N := 64) dot_S5000x256_S256x64_S5000x64_1_0_0_1_n_n rfl rfl lhs_row lhs_col rhs_row rhs_col none _ _ y

/-! ## The blocks, read off the arrays -/

/-- The printed index maps, decided over the grid: the left operand's and the output's blocks move down one block
    per point, the right operand's block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 5000·t … of its array. -/
theorem left_block (c : Dev nD) (t : Fin cfg0.N) (y : S5000x256.Idx) (i : S100000x256.Idx)
    (h0 : (i 0).val = 5000 * t.val + (y 0).val) (h1 : (i 1).val = (y 1).val) :
    (iblk0 V c 0 t : Vec Ideal S5000x256 .f32) y = (V c main_arg0 : S100000x256.Idx → Elt Ideal .f32) i := by
  obtain ⟨e0, e1, -, -, -, -⟩ := idx_facts t
  unfold iblk0
  rw [View.read_apply]
  show V c main_arg0 _ = V c main_arg0 _
  refine congrArg (V c main_arg0) ?_
  funext a
  apply Fin.ext
  match a with
  | ⟨0, _⟩ => show win0_0.index t 0 * 5000 + 1 * (y 0).val = (i 0).val; rw [e0, h0]; omega
  | ⟨1, _⟩ => show win0_0.index t 1 * 256 + 1 * (y 1).val = (i 1).val; rw [e1, h1]; omega

/-- The right operand's block at every point is its whole array. -/
theorem right_block (c : Dev nD) (t : Fin cfg0.N) (y i : S256x64.Idx)
    (h0 : (i 0).val = (y 0).val) (h1 : (i 1).val = (y 1).val) :
    (iblk0 V c 1 t : Vec Ideal S256x64 .f32) y = (V c main_arg1 : S256x64.Idx → Elt Ideal .f32) i := by
  obtain ⟨-, -, e0, e1, -, -⟩ := idx_facts t
  unfold iblk0
  rw [View.read_apply]
  show V c main_arg1 _ = V c main_arg1 _
  refine congrArg (V c main_arg1) ?_
  funext a
  apply Fin.ext
  match a with
  | ⟨0, _⟩ => show win0_1.index t 0 * 256 + 1 * (y 0).val = (i 0).val; rw [e0, h0]; omega
  | ⟨1, _⟩ => show win0_1.index t 1 * 64 + 1 * (y 1).val = (i 1).val; rw [e1, h1]; omega

/-! ## What a point writes back, the cover, the array -/

/-- The whole product of the operand arrays as the region finds them. -/
abbrev product (c : Dev nD) : S100000x64.Idx → EReal :=
  rowsTimes (M := 100000) (K := 256) (N := 64) (V c main_arg0 : S100000x256.Idx → Elt Ideal .f32) (V c main_arg1 : S256x64.Idx → Elt Ideal .f32)

/-- WHAT POINT t WRITES BACK is block t of the whole product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x64) hz]
  obtain ⟨-, -, -, -, e0, e1⟩ := idx_facts t
  funext j
  show k0_pay1 (F := Ideal) (iblk0 V c 0 t) (iblk0 V c 1 t) j = product V c (((cfg0.win 2).blk t).view.emb j)
  refine (product_block _ _ j).trans ?_
  unfold product rowsTimes
  refine Finset.sum_congr rfl fun k _ => ?_
  have hr : ((((cfg0.win 2).blk t).view.emb j) 0).val = 5000 * t.val + (j 0).val := by
    show win0_2.index t 0 * 5000 + 1 * (j 0).val = _; rw [e0]; omega
  have hc : ((((cfg0.win 2).blk t).view.emb j) 1).val = (j 1).val := by
    show win0_2.index t 1 * 64 + 1 * (j 1).val = _; rw [e1]; omega
  rw [left_block V c t (ix2 (j 0) k) (ix2 ((((cfg0.win 2).blk t).view.emb j) 0) k) hr rfl,
    right_block V c t (ix2 k (j 1)) (ix2 k ((((cfg0.win 2).blk t).view.emb j) 1)) rfl hc]

/-- An index of the output is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v12).slice (win0_2.rect t)).set ↔ _
  rw [View.set_slice_whole, Rect.mem_set_unit]
  exact Iff.rfl

/-- Row r of the output is in the block of point r / 5000: the 20 blocks cover the array. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_2 _, ?_⟩
  obtain ⟨-, -, -, -, e0, e1⟩ := idx_facts ⟨(i 0).val / 5000, by rw [hN]; omega⟩
  rw [mem_blk]
  intro a
  match a with
  | ⟨0, _⟩ =>
    show win0_2.index ⟨(i 0).val / 5000, _⟩ (0 : Fin 2) * 5000 ≤ (i 0).val ∧ (i 0).val < win0_2.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win0_2.index ⟨(i 0).val / 5000, _⟩ (1 : Fin 2) * 64 ≤ (i 1).val ∧ (i 1).val < win0_2.index ⟨(i 0).val / 5000, _⟩ (1 : Fin 2) * 64 + 64
    rw [e1]; omega

/-- THE ARRAY after the region: the whole product of the operand arrays the region found. -/
theorem array_eq (c : Dev nD) : (dat0 V c).arrAt 2 cfg0.N = product V c :=
  (dat0 V c).arrAt_eq_of_cover 2 (product V c) (fun t _ => flushed_eq V c t) cover

end Cert.KernelIdeal.Region0

end
-- ==== Proof.Region1.lean ====
/-
  Region 1: the array the pipelined matrix product leaves is the row-by-column product of its two operand arrays.

  The grid has 20 points.  Point t multiplies rows 5000·t … 5000·t + 4999 of the left operand (a [5000, 64] block)
  by the whole right operand (the one [64, 40] block, the same at every point) and writes the [5000, 40] result back as rows
  5000·t … 5000·t + 4999 of the output.  (The body first casts the left block to its own shape, which changes nothing.)  On the extended reals the rounding of both blocks to bf16 is the identity
  and the product into a zero accumulator is the plain sum over the contracted coordinate, so what point t writes
  back is block t of ONE function of the whole arrays, `rowsTimes left right`; the 20 blocks tile the output.
  Everything is stated at the region's entry contents `V`, whatever they are.
-/
import proofs.«168625_j44461501448279_1_alg».proof.Proof.Gen.KernelIdeal.Frame
import proofs.«168625_j44461501448279_1_alg».proof.Proof.LibRowColumn
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Lib.RowColumn

variable (V : (c : Dev nD) → (b : Ref sig .tc) → Buf (Elt Ideal) ((c : Thread nD τ).loc b))

theorem hz : (![0, 0] : Fin 2 → Nat) = fun _ => 0 := funext fun a => by fin_cases a <;> rfl

/-! ## The block product at an entry -/

/-- The contraction's dimension numbers: output row from the left operand's rows, -/
theorem lhs_row (i : S5000x40.Idx) (q : dot_S5000x64_S64x40_S5000x40_1_0_0_1_n_n.contr.Idx) :
    (dot_S5000x64_S64x40_S5000x40_1_0_0_1_n_n.lhsIdx i q 0).val = (i 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl
/-- the left operand's column is the contracted coordinate, -/
theorem lhs_col (i : S5000x40.Idx) (q : dot_S5000x64_S64x40_S5000x40_1_0_0_1_n_n.contr.Idx) :
    (dot_S5000x64_S64x40_S5000x40_1_0_0_1_n_n.lhsIdx i q 1).val = (q ⟨0, by decide⟩).val :=
  dot_S5000x64_S64x40_S5000x40_1_0_0_1_n_n.lhsIdx_val_of_single rfl i q
/-- so is the right operand's row, -/
theorem rhs_row (i : S5000x40.Idx) (q : dot_S5000x64_S64x40_S5000x40_1_0_0_1_n_n.contr.Idx) :
    (dot_S5000x64_S64x40_S5000x40_1_0_0_1_n_n.rhsIdx i q 0).val = (q ⟨0, by decide⟩).val :=
  dot_S5000x64_S64x40_S5000x40_1_0_0_1_n_n.rhsIdx_val_of_single rfl i q
/-- and the output column comes from the right operand's columns. -/
theorem rhs_col (i : S5000x40.Idx) (q : dot_S5000x64_S64x40_S5000x40_1_0_0_1_n_n.contr.Idx) :
    (dot_S5000x64_S64x40_S5000x40_1_0_0_1_n_n.rhsIdx i q 1).val = (i 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl

/-- What the body stores, at entry (p, q) of the block: the sum over k of left (p, k) · right (k, q). -/
theorem product_block (x0 : Vec Ideal S5000x64 .f32) (x1 : Vec Ideal S64x40 .f32) (y : S5000x40.Idx) :
    k1_pay1 (F := Ideal) x0 x1 y = ∑ k : Fin 64, x0 (ix2 (y 0) k) * x1 (ix2 k (y 1)) := by
  unfold k1_pay1
  simp only [shapeCast_self]
  exact matmul_zero_entry (M := 5000) (K := 64) (N := 40) dot_S5000x64_S64x40_S5000x40_1_0_0_1_n_n rfl rfl lhs_row lhs_col rhs_row rhs_col none _ _ y

/-! ## The blocks, read off the arrays -/

/-- The printed index maps, decided over the grid: the left operand's and the output's blocks move down one block
    per point, the right operand's block stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t is rows 5000·t … of its array. -/
theorem left_block (c : Dev nD) (t : Fin cfg1.N) (y : S5000x64.Idx) (i : S100000x64.Idx)
    (h0 : (i 0).val = 5000 * t.val + (y 0).val) (h1 : (i 1).val = (y 1).val) :
    (iblk1 V c 0 t : Vec Ideal S5000x64 .f32) y = (V c main_v44 : S100000x64.Idx → Elt Ideal .f32) i := by
  obtain ⟨e0, e1, -, -, -, -⟩ := idx_facts t
  unfold iblk1
  rw [View.read_apply]
  show V c main_v44 _ = V c main_v44 _
  refine congrArg (V c main_v44) ?_
  funext a
  apply Fin.ext
  match a with
  | ⟨0, _⟩ => show win1_0.index t 0 * 5000 + 1 * (y 0).val = (i 0).val; rw [e0, h0]; omega
  | ⟨1, _⟩ => show win1_0.index t 1 * 64 + 1 * (y 1).val = (i 1).val; rw [e1, h1]; omega

/-- The right operand's block at every point is its whole array. -/
theorem right_block (c : Dev nD) (t : Fin cfg1.N) (y i : S64x40.Idx)
    (h0 : (i 0).val = (y 0).val) (h1 : (i 1).val = (y 1).val) :
    (iblk1 V c 1 t : Vec Ideal S64x40 .f32) y = (V c main_arg3 : S64x40.Idx → Elt Ideal .f32) i := by
  obtain ⟨-, -, e0, e1, -, -⟩ := idx_facts t
  unfold iblk1
  rw [View.read_apply]
  show V c main_arg3 _ = V c main_arg3 _
  refine congrArg (V c main_arg3) ?_
  funext a
  apply Fin.ext
  match a with
  | ⟨0, _⟩ => show win1_1.index t 0 * 64 + 1 * (y 0).val = (i 0).val; rw [e0, h0]; omega
  | ⟨1, _⟩ => show win1_1.index t 1 * 40 + 1 * (y 1).val = (i 1).val; rw [e1, h1]; omega

/-! ## What a point writes back, the cover, the array -/

/-- The whole product of the operand arrays as the region finds them. -/
abbrev product (c : Dev nD) : S100000x40.Idx → EReal :=
  rowsTimes (M := 100000) (K := 64) (N := 40) (V c main_v44 : S100000x64.Idx → Elt Ideal .f32) (V c main_arg3 : S64x40.Idx → Elt Ideal .f32)

/-- WHAT POINT t WRITES BACK is block t of the whole product. -/
theorem flushed_eq (c : Dev nD) (t : Fin cfg1.N) :
    (dat1 V c).flushed 2 t = ((cfg1.win 2).blk t).view.read (Elt Ideal) (product V c) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x40) hz]
  obtain ⟨-, -, -, -, e0, e1⟩ := idx_facts t
  funext j
  show k1_pay1 (F := Ideal) (iblk1 V c 0 t) (iblk1 V c 1 t) j = product V c (((cfg1.win 2).blk t).view.emb j)
  refine (product_block _ _ j).trans ?_
  unfold product rowsTimes
  refine Finset.sum_congr rfl fun k _ => ?_
  have hr : ((((cfg1.win 2).blk t).view.emb j) 0).val = 5000 * t.val + (j 0).val := by
    show win1_2.index t 0 * 5000 + 1 * (j 0).val = _; rw [e0]; omega
  have hc : ((((cfg1.win 2).blk t).view.emb j) 1).val = (j 1).val := by
    show win1_2.index t 1 * 40 + 1 * (j 1).val = _; rw [e1]; omega
  rw [left_block V c t (ix2 (j 0) k) (ix2 ((((cfg1.win 2).blk t).view.emb j) 0) k) hr rfl,
    right_block V c t (ix2 k (j 1)) (ix2 k ((((cfg1.win 2).blk t).view.emb j) 1)) rfl hc]

/-- An index of the output is in point t's block iff each coordinate is in the block's range on its axis. -/
theorem mem_blk (t : Fin cfg1.N) (i : S100000x40.Idx) :
    i ∈ ((cfg1.win 2).blk t).view.set ↔ ∀ a : Fin 2, win1_2.index t a * S5000x40.size a ≤ (i a).val ∧ (i a).val < win1_2.index t a * S5000x40.size a + S5000x40.size a := by
  show i ∈ ((View.whole main_v45).slice (win1_2.rect t)).set ↔ _
  rw [View.set_slice_whole, Rect.mem_set_unit]
  exact Iff.rfl

/-- Row r of the output is in the block of point r / 5000: the 20 blocks cover the array. -/
theorem cover (i : S100000x40.Idx) :
    ∃ t : Fin cfg1.N, (cfg1.win 2).flush t = true ∧ i ∈ ((cfg1.win 2).blk t).view.set := by
  have hi0 : (i 0).val < 100000 := (i 0).isLt
  have hi1 : (i 1).val < 40 := (i 1).isLt
  have hN : cfg1.N = 20 := N_1
  refine ⟨⟨(i 0).val / 5000, by rw [hN]; omega⟩, flush1_2 _, ?_⟩
  obtain ⟨-, -, -, -, e0, e1⟩ := idx_facts ⟨(i 0).val / 5000, by rw [hN]; omega⟩
  rw [mem_blk]
  intro a
  match a with
  | ⟨0, _⟩ =>
    show win1_2.index ⟨(i 0).val / 5000, _⟩ (0 : Fin 2) * 5000 ≤ (i 0).val ∧ (i 0).val < win1_2.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win1_2.index ⟨(i 0).val / 5000, _⟩ (1 : Fin 2) * 40 ≤ (i 1).val ∧ (i 1).val < win1_2.index ⟨(i 0).val / 5000, _⟩ (1 : Fin 2) * 40 + 40
    rw [e1]; omega

/-- THE ARRAY after the region: the whole product of the operand arrays the region found. -/
theorem array_eq (c : Dev nD) : (dat1 V c).arrAt 2 cfg1.N = product V c :=
  (dat1 V c).arrAt_eq_of_cover 2 (product V c) (fun t _ => flushed_eq V c t) cover

end Cert.KernelIdeal.Region1

end
-- ==== Proof.HostChain.lean ====
/-
  The host side of the two graph-convolution layers, as functions of arrays.

  Both programs compute, around their two dense products, the same message passing: the edge list with one self
  loop per node appended (sources `src`, targets `dst`), the degree of every node counted over the targets, its
  inverse square root `dinv`, the edge weight `dinv[src] * dinv[dst]`, and per layer
  "gather the rows of `h` at the sources, scale by the edge weight, add up over the targets, add the bias";
  the first layer's result goes through the rectifier.  Here each of these is ONE function of its operand arrays,
  spelt with the host operations themselves, so that both programs' results are the same composition of them
  around the two products and nothing in a scatter, a gather or an inverse square root is ever opened.
-/
import proofs.«168625_j44461501448279_1_alg».proof.ReferenceIdeal

noncomputable section

namespace Cert.HostChain

open Cert.ReferenceIdeal Idealize.ShloMosaic

variable {F : FTy → Type} [FloatOps F] [Facts]
open Facts₀ Facts

/-- Row `r` (0: sources, 1: targets) of the edge list followed by one self loop per node, 0 … 99999. -/
def srcOf (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

def dstOf (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node id read the way an index is: a negative one counts from the end (`i + 100000`). -/
def wrap (s : (⟨S1700000, .i32⟩ : BufTy).Contents (Elt F)) : (⟨S1700000, .i32⟩ : BufTy).Contents (Elt F) :=
  select (cmpi .slt s (broadcastInDim S1700000 ![] bcast_S_S1700000 (constantI S_ 32 0#32))) (addi s (broadcastInDim S1700000 ![] bcast_S_S1700000 (constantI S_ 32 100000#32))) s

/-- The inverse square root of every node's degree: ones added up over the targets. -/
def dinvOf (dst : (⟨S1700000, .i32⟩ : BufTy).Contents (Elt F)) : (⟨S100000, .f32⟩ : BufTy).Contents (Elt F) :=
  Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32)))

/-- The weight of every edge: `dinv` at its source times `dinv` at its target. -/
def normOf (src dst : (⟨S1700000, .i32⟩ : BufTy).Contents (Elt F)) (dinv : (⟨S100000, .f32⟩ : BufTy).Contents (Elt F)) :
    (⟨S1700000, .f32⟩ : BufTy).Contents (Elt F) :=
  mulf (Host.gather gather_S100000_S1700000x1_S1700000_n_0_n_n_0_1_1 dinv (broadcastInDim S1700000x1 ![0] bcast_S1700000_S1700000x1_0 (wrap src))) (Host.gather gather_S100000_S1700000x1_S1700000_n_0_n_n_0_1_1 dinv (broadcastInDim S1700000x1 ![0] bcast_S1700000_S1700000x1_0 (wrap dst)))

/-- The first layer after its dense product `h`: rows gathered at the sources, weighted, summed over the targets, plus the bias. -/
def conv64 (src dst : (⟨S1700000, .i32⟩ : BufTy).Contents (Elt F)) (dinv : (⟨S100000, .f32⟩ : BufTy).Contents (Elt F))
    (h : (⟨S100000x64, .f32⟩ : BufTy).Contents (Elt F)) (b : (⟨S64, .f32⟩ : BufTy).Contents (Elt F)) :
    (⟨S100000x64, .f32⟩ : BufTy).Contents (Elt F) :=
  addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 dst) (mulf (Host.gather gather_S100000x64_S1700000x1_S1700000x64_1_0_n_n_0_1_164 h (broadcastInDim S1700000x1 ![0] bcast_S1700000_S1700000x1_0 (wrap src))) (broadcastInDim S1700000x64 ![0, 1] bcast_S1700000x1_S1700000x64_0_1 (broadcastInDim S1700000x1 ![0] bcast_S1700000_S1700000x1_0 (normOf src dst dinv))))) (broadcastInDim S100000x64 ![0, 1] bcast_S1x64_S100000x64_0_1 (broadcastInDim S1x64 ![1] bcast_S64_S1x64_1 b))

/-- The rectifier: the maximum with zero, entry by entry. -/
def relu64 (h : (⟨S100000x64, .f32⟩ : BufTy).Contents (Elt F)) : (⟨S100000x64, .f32⟩ : BufTy).Contents (Elt F) :=
  maximumf h (broadcastInDim S100000x64 ![] bcast_S_S100000x64 (constant S_ .f32 0x00000000#32))

/-- The second layer after its dense product `h`. -/
def conv40 (src dst : (⟨S1700000, .i32⟩ : BufTy).Contents (Elt F)) (dinv : (⟨S100000, .f32⟩ : BufTy).Contents (Elt F))
    (h : (⟨S100000x40, .f32⟩ : BufTy).Contents (Elt F)) (b : (⟨S40, .f32⟩ : BufTy).Contents (Elt F)) :
    (⟨S100000x40, .f32⟩ : BufTy).Contents (Elt F) :=
  addf (Host.scatterAdd scatter_S100000x40_S1700000x1_S1700000x40_1_0_0_1 (broadcastInDim S100000x40 ![] bcast_S_S100000x40 (constant S_ .f32 0x00000000#32)) (broadcastInDim S1700000x1 ![0] bcast_S1700000_S1700000x1_0 dst) (mulf (Host.gather gather_S100000x40_S1700000x1_S1700000x40_1_0_n_n_0_1_140 h (broadcastInDim S1700000x1 ![0] bcast_S1700000_S1700000x1_0 (wrap src))) (broadcastInDim S1700000x40 ![0, 1] bcast_S1700000x1_S1700000x40_0_1 (broadcastInDim S1700000x1 ![0] bcast_S1700000_S1700000x1_0 (normOf src dst dinv))))) (broadcastInDim S100000x40 ![0, 1] bcast_S1x40_S100000x40_0_1 (broadcastInDim S1x40 ![1] bcast_S40_S1x40_1 b))

/-- Both layers around two given dense products `P1 : [100000,256] × [256,64]` and `P2 : [100000,64] × [64,40]`. -/
def network (P1 : (⟨S100000x256, .f32⟩ : BufTy).Contents (Elt F) → (⟨S256x64, .f32⟩ : BufTy).Contents (Elt F) → (⟨S100000x64, .f32⟩ : BufTy).Contents (Elt F))
    (P2 : (⟨S100000x64, .f32⟩ : BufTy).Contents (Elt F) → (⟨S64x40, .f32⟩ : BufTy).Contents (Elt F) → (⟨S100000x40, .f32⟩ : BufTy).Contents (Elt F))
    (x : (⟨S100000x256, .f32⟩ : BufTy).Contents (Elt F)) (w1 : (⟨S256x64, .f32⟩ : BufTy).Contents (Elt F)) (b1 : (⟨S64, .f32⟩ : BufTy).Contents (Elt F))
    (w2 : (⟨S64x40, .f32⟩ : BufTy).Contents (Elt F)) (b2 : (⟨S40, .f32⟩ : BufTy).Contents (Elt F)) (e : (⟨S2x1600000, .i32⟩ : BufTy).Contents (Elt F)) :
    (⟨S100000x40, .f32⟩ : BufTy).Contents (Elt F) :=
  conv40 (srcOf e) (dstOf e) (dinvOf (dstOf e))
    (P2 (relu64 (conv64 (srcOf e) (dstOf e) (dinvOf (dstOf e)) (P1 x w1) b1)) w2) b2

end Cert.HostChain

end
-- ==== Proof.Stretch0.lean ====
/-
  The host stretch before the first region, read at the buffers later segments use.

  From the edge argument it builds the source and target lists with one self loop per node appended, counts every
  node's degree over the targets and takes the inverse square root; it writes no argument.
-/
import proofs.«168625_j44461501448279_1_alg».proof.Proof.Gen.KernelIdeal.Frame
import proofs.«168625_j44461501448279_1_alg».proof.Proof.HostChain
import Idealize.ShloMosaic.Lib.StableHlo.Run
import Idealize.ShloMosaic.PureOps.Ideal

noncomputable section

namespace Cert.KernelIdeal.Stretch0

open Cert.KernelIdeal Cert.KernelIdeal.Gen Idealize.ShloMosaic Idealize.ShloMosaic.TcCoe Idealize.SL.Sem Idealize.ShloMosaic.StableHlo
open Cert.HostChain

variable [Cert.ReferenceIdeal.Facts]
variable (m : (ℓ : Loc nD τ sig) → Buf (Elt Ideal) ℓ) (ρ : Dev nD → PrngReg)

theorem src_entry0 (c : Dev nD) : W1 m ρ c (Proc.devRef .tc main_v3) = srcOf (m ((c.tc : Thread nD τ).loc main_arg5)) := by
  show StableHlo.after hostOps0 (W0 m ρ c) (Proc.devRef .tc main_v3) = _
  after_results_simp
  rfl
theorem dst_entry0 (c : Dev nD) : W1 m ρ c (Proc.devRef .tc main_v6) = dstOf (m ((c.tc : Thread nD τ).loc main_arg5)) := by
  show StableHlo.after hostOps0 (W0 m ρ c) (Proc.devRef .tc main_v6) = _
  after_results_simp
  rfl
theorem dinv_entry0 (c : Dev nD) : W1 m ρ c (Proc.devRef .tc main_v11) = dinvOf (dstOf (m ((c.tc : Thread nD τ).loc main_arg5))) := by
  show StableHlo.after hostOps0 (W0 m ρ c) (Proc.devRef .tc main_v11) = _
  after_results_simp
  rfl
theorem arg0_entry0 (c : Dev nD) : W1 m ρ c (Proc.devRef .tc main_arg0) = (m ((c.tc : Thread nD τ).loc main_arg0)) := by
  show StableHlo.after hostOps0 (W0 m ρ c) (Proc.devRef .tc main_arg0) = _
  after_results_simp
theorem arg1_entry0 (c : Dev nD) : W1 m ρ c (Proc.devRef .tc main_arg1) = (m ((c.tc : Thread nD τ).loc main_arg1)) := by
  show StableHlo.after hostOps0 (W0 m ρ c) (Proc.devRef .tc main_arg1) = _
  after_results_simp
theorem arg2_entry0 (c : Dev nD) : W1 m ρ c (Proc.devRef .tc main_arg2) = (m ((c.tc : Thread nD τ).loc main_arg2)) := by
  show StableHlo.after hostOps0 (W0 m ρ c) (Proc.devRef .tc main_arg2) = _
  after_results_simp
theorem arg3_entry0 (c : Dev nD) : W1 m ρ c (Proc.devRef .tc main_arg3) = (m ((c.tc : Thread nD τ).loc main_arg3)) := by
  show StableHlo.after hostOps0 (W0 m ρ c) (Proc.devRef .tc main_arg3) = _
  after_results_simp
theorem arg4_entry0 (c : Dev nD) : W1 m ρ c (Proc.devRef .tc main_arg4) = (m ((c.tc : Thread nD τ).loc main_arg4)) := by
  show StableHlo.after hostOps0 (W0 m ρ c) (Proc.devRef .tc main_arg4) = _
  after_results_simp

end Cert.KernelIdeal.Stretch0

end
-- ==== Proof.Stretch1.lean ====
/-
  The two host stretches between the regions, read at the buffers later segments use.

  The first computes, from the first region's product, the first layer: rows gathered at the sources, weighted, summed
  over the targets, plus the bias.  The second is the rectifier.  The edge lists, the inverse square roots and the
  arguments pass through both unwritten.  Each stretch is read over any contents `W` of the buffers it starts from.
-/
import proofs.«168625_j44461501448279_1_alg».proof.Proof.Gen.KernelIdeal.Frame
import proofs.«168625_j44461501448279_1_alg».proof.Proof.HostChain
import Idealize.ShloMosaic.Lib.StableHlo.Run
import Idealize.ShloMosaic.PureOps.Ideal

noncomputable section

namespace Cert.KernelIdeal.Stretch1

open Cert.KernelIdeal Cert.KernelIdeal.Gen Idealize.ShloMosaic Idealize.ShloMosaic.TcCoe Idealize.SL.Sem Idealize.ShloMosaic.StableHlo
open Cert.HostChain

variable [Cert.ReferenceIdeal.Facts]
variable (m : (ℓ : Loc nD τ sig) → Buf (Elt Ideal) ℓ) (ρ : Dev nD → PrngReg)

/-- The first layer from any contents of the buffers its stretch reads. -/
theorem layer_of (W : Valuation τ sig (Elt Ideal)) :
    StableHlo.after hostOps1 W (Proc.devRef .tc main_v43)
      = conv64 (W (Proc.devRef .tc main_v3)) (W (Proc.devRef .tc main_v6)) (W (Proc.devRef .tc main_v11))
          (W (Proc.devRef .tc main_v12)) (W (Proc.devRef .tc main_arg2)) := by
  after_results_simp
  rfl

/-- The rectifier's stretch from any contents of the buffer it reads. -/
theorem rectified_of (W : Valuation τ sig (Elt Ideal)) :
    StableHlo.after hostOps1_1 W (Proc.devRef .tc main_v44) = relu64 (W (Proc.devRef .tc main_v43)) := by
  after_results_simp
  rfl

theorem hidden_entry1 (c : Dev nD) :
    W4 m ρ c (Proc.devRef .tc main_v44)
      = relu64 (conv64 (W2 m ρ c (Proc.devRef .tc main_v3)) (W2 m ρ c (Proc.devRef .tc main_v6)) (W2 m ρ c (Proc.devRef .tc main_v11))
          (W2 m ρ c (Proc.devRef .tc main_v12)) (W2 m ρ c (Proc.devRef .tc main_arg2))) :=
  (rectified_of (W3 m ρ c)).trans (congrArg relu64 (layer_of (W2 m ρ c)))
theorem keep1_v3 (c : Dev nD) : W4 m ρ c (Proc.devRef .tc main_v3) = W2 m ρ c (Proc.devRef .tc main_v3) := by
  show StableHlo.after hostOps1_1 (StableHlo.after hostOps1 (W2 m ρ c)) (Proc.devRef .tc main_v3) = _
  after_results_simp
theorem keep1_v6 (c : Dev nD) : W4 m ρ c (Proc.devRef .tc main_v6) = W2 m ρ c (Proc.devRef .tc main_v6) := by
  show StableHlo.after hostOps1_1 (StableHlo.after hostOps1 (W2 m ρ c)) (Proc.devRef .tc main_v6) = _
  after_results_simp
theorem keep1_v11 (c : Dev nD) : W4 m ρ c (Proc.devRef .tc main_v11) = W2 m ρ c (Proc.devRef .tc main_v11) := by
  show StableHlo.after hostOps1_1 (StableHlo.after hostOps1 (W2 m ρ c)) (Proc.devRef .tc main_v11) = _
  after_results_simp
theorem keep1_arg3 (c : Dev nD) : W4 m ρ c (Proc.devRef .tc main_arg3) = W2 m ρ c (Proc.devRef .tc main_arg3) := by
  show StableHlo.after hostOps1_1 (StableHlo.after hostOps1 (W2 m ρ c)) (Proc.devRef .tc main_arg3) = _
  after_results_simp
theorem keep1_arg4 (c : Dev nD) : W4 m ρ c (Proc.devRef .tc main_arg4) = W2 m ρ c (Proc.devRef .tc main_arg4) := by
  show StableHlo.after hostOps1_1 (StableHlo.after hostOps1 (W2 m ρ c)) (Proc.devRef .tc main_arg4) = _
  after_results_simp

end Cert.KernelIdeal.Stretch1

end
-- ==== Proof.Stretch2.lean ====
/-
  The host stretch after the second region, read at the result: the second layer applied to that region's product.
-/
import proofs.«168625_j44461501448279_1_alg».proof.Proof.Gen.KernelIdeal.Frame
import proofs.«168625_j44461501448279_1_alg».proof.Proof.HostChain
import Idealize.ShloMosaic.Lib.StableHlo.Run
import Idealize.ShloMosaic.PureOps.Ideal

noncomputable section

namespace Cert.KernelIdeal.Stretch2

open Cert.KernelIdeal Cert.KernelIdeal.Gen Idealize.ShloMosaic Idealize.ShloMosaic.TcCoe Idealize.SL.Sem Idealize.ShloMosaic.StableHlo
open Cert.HostChain

variable [Cert.ReferenceIdeal.Facts]
variable (m : (ℓ : Loc nD τ sig) → Buf (Elt Ideal) ℓ) (ρ : Dev nD → PrngReg)

theorem result_exit (c : Dev nD) :
    W6 m ρ c (Proc.devRef .tc main_v76)
      = conv40 (W5 m ρ c (Proc.devRef .tc main_v3)) (W5 m ρ c (Proc.devRef .tc main_v6)) (W5 m ρ c (Proc.devRef .tc main_v11))
          (W5 m ρ c (Proc.devRef .tc main_v45)) (W5 m ρ c (Proc.devRef .tc main_arg4)) := by
  show StableHlo.after hostOps2 (W5 m ρ c) (Proc.devRef .tc main_v76) = _
  after_results_simp
  rfl

end Cert.KernelIdeal.Stretch2

end
-- ==== Proof.KernelValue.lean ====
/-
  The idealized kernel program's result is the network around the two row-by-column products.

  The run leaves the result at the fold of the program's six segments over the launch memory.  Read segment by
  segment: the first host stretch builds the edge lists with self loops and the inverse square roots of the degrees
  from the edge argument and touches nothing else (Stretch0); the first region leaves x · W1, rows times columns,
  in its output and every other buffer as it was (Region0); the next two stretches apply the first layer's message
  passing and the rectifier (Stretch1); the second region leaves relu(…) · W2 (Region1); the last stretch applies the
  second layer's message passing (Stretch2).  Composed, that is `HostChain.network` around the two products.
-/
import proofs.«168625_j44461501448279_1_alg».proof.Proof.Gen.KernelIdeal.Frame
import proofs.«168625_j44461501448279_1_alg».proof.Proof.Region0
import proofs.«168625_j44461501448279_1_alg».proof.Proof.Region1
import proofs.«168625_j44461501448279_1_alg».proof.Proof.HostChain
import proofs.«168625_j44461501448279_1_alg».proof.Proof.Stretch0
import proofs.«168625_j44461501448279_1_alg».proof.Proof.Stretch1
import proofs.«168625_j44461501448279_1_alg».proof.Proof.Stretch2
import Idealize.ShloMosaic.PureOps.Ideal

noncomputable section

namespace Cert.KernelIdeal.KernelValue

open Cert.KernelIdeal Cert.KernelIdeal.Gen Idealize.ShloMosaic Idealize.ShloMosaic.TcCoe Idealize.SL.Sem
open Cert.HostChain Cert.KernelIdeal.Stretch0 Cert.KernelIdeal.Stretch1 Cert.KernelIdeal.Stretch2

variable [Cert.ReferenceIdeal.Facts]
variable (m : (ℓ : Loc nD τ sig) → Buf (Elt Ideal) ℓ) (ρ : Dev nD → PrngReg)

/-! ## Leaving the first region: its output is x · W1, every other buffer as entered -/

theorem product_exit0 (c : Dev nD) :
    W2 m ρ c (Proc.devRef .tc main_v12) = Cert.Lib.RowColumn.rowsTimes (M := 100000) (K := 256) (N := 64) (m ((c.tc : Thread nD τ).loc main_arg0)) (m ((c.tc : Thread nD τ).loc main_arg1)) := by
  refine (W2_arr m ρ c 2).trans ((Cert.KernelIdeal.Region0.array_eq (V1 m ρ) c).trans ?_)
  show Cert.Lib.RowColumn.rowsTimes (M := 100000) (K := 256) (N := 64) (W1 m ρ c (Proc.devRef .tc main_arg0)) (W1 m ρ c (Proc.devRef .tc main_arg1)) = _
  rw [arg0_entry0, arg1_entry0]
theorem keep0_v3 (c : Dev nD) : W2 m ρ c (Proc.devRef .tc main_v3) = W1 m ρ c (Proc.devRef .tc main_v3) :=
  W2_of_ne m ρ c main_v3 (by decide)
theorem keep0_v6 (c : Dev nD) : W2 m ρ c (Proc.devRef .tc main_v6) = W1 m ρ c (Proc.devRef .tc main_v6) :=
  W2_of_ne m ρ c main_v6 (by decide)
theorem keep0_v11 (c : Dev nD) : W2 m ρ c (Proc.devRef .tc main_v11) = W1 m ρ c (Proc.devRef .tc main_v11) :=
  W2_of_ne m ρ c main_v11 (by decide)
theorem keep0_arg2 (c : Dev nD) : W2 m ρ c (Proc.devRef .tc main_arg2) = W1 m ρ c (Proc.devRef .tc main_arg2) :=
  W2_of_ne m ρ c main_arg2 (by decide)
theorem keep0_arg3 (c : Dev nD) : W2 m ρ c (Proc.devRef .tc main_arg3) = W1 m ρ c (Proc.devRef .tc main_arg3) :=
  W2_of_ne m ρ c main_arg3 (by decide)
theorem keep0_arg4 (c : Dev nD) : W2 m ρ c (Proc.devRef .tc main_arg4) = W1 m ρ c (Proc.devRef .tc main_arg4) :=
  W2_of_ne m ρ c main_arg4 (by decide)

/-! ## Leaving the second region: its output is the hidden layer times W2 -/

theorem product_exit1 (c : Dev nD) :
    W5 m ρ c (Proc.devRef .tc main_v45)
      = Cert.Lib.RowColumn.rowsTimes (M := 100000) (K := 64) (N := 40) (W4 m ρ c (Proc.devRef .tc main_v44)) (W4 m ρ c (Proc.devRef .tc main_arg3)) :=
  (W5_arr m ρ c 2).trans (Cert.KernelIdeal.Region1.array_eq (V4 m ρ) c)
theorem keep2_v3 (c : Dev nD) : W5 m ρ c (Proc.devRef .tc main_v3) = W4 m ρ c (Proc.devRef .tc main_v3) :=
  W5_of_ne m ρ c main_v3 (by decide)
theorem keep2_v6 (c : Dev nD) : W5 m ρ c (Proc.devRef .tc main_v6) = W4 m ρ c (Proc.devRef .tc main_v6) :=
  W5_of_ne m ρ c main_v6 (by decide)
theorem keep2_v11 (c : Dev nD) : W5 m ρ c (Proc.devRef .tc main_v11) = W4 m ρ c (Proc.devRef .tc main_v11) :=
  W5_of_ne m ρ c main_v11 (by decide)
theorem keep2_arg4 (c : Dev nD) : W5 m ρ c (Proc.devRef .tc main_arg4) = W4 m ρ c (Proc.devRef .tc main_arg4) :=
  W5_of_ne m ρ c main_arg4 (by decide)

/-! ## Composed -/

/-- The edge lists and the inverse square roots reach every later segment as the first stretch left them. -/
theorem src_at5 (c : Dev nD) : W5 m ρ c (Proc.devRef .tc main_v3) = srcOf (m ((c.tc : Thread nD τ).loc main_arg5)) := by
  rw [keep2_v3, keep1_v3, keep0_v3, src_entry0]
theorem dst_at5 (c : Dev nD) : W5 m ρ c (Proc.devRef .tc main_v6) = dstOf (m ((c.tc : Thread nD τ).loc main_arg5)) := by
  rw [keep2_v6, keep1_v6, keep0_v6, dst_entry0]
theorem dinv_at5 (c : Dev nD) : W5 m ρ c (Proc.devRef .tc main_v11) = dinvOf (dstOf (m ((c.tc : Thread nD τ).loc main_arg5))) := by
  rw [keep2_v11, keep1_v11, keep0_v11, dinv_entry0]
theorem src_at2 (c : Dev nD) : W2 m ρ c (Proc.devRef .tc main_v3) = srcOf (m ((c.tc : Thread nD τ).loc main_arg5)) := by
  rw [keep0_v3, src_entry0]
theorem dst_at2 (c : Dev nD) : W2 m ρ c (Proc.devRef .tc main_v6) = dstOf (m ((c.tc : Thread nD τ).loc main_arg5)) := by
  rw [keep0_v6, dst_entry0]
theorem dinv_at2 (c : Dev nD) : W2 m ρ c (Proc.devRef .tc main_v11) = dinvOf (dstOf (m ((c.tc : Thread nD τ).loc main_arg5))) := by
  rw [keep0_v11, dinv_entry0]
theorem b1_at2 (c : Dev nD) : W2 m ρ c (Proc.devRef .tc main_arg2) = (m ((c.tc : Thread nD τ).loc main_arg2)) := by
  rw [keep0_arg2, arg2_entry0]
theorem w2_at4 (c : Dev nD) : W4 m ρ c (Proc.devRef .tc main_arg3) = (m ((c.tc : Thread nD τ).loc main_arg3)) := by
  rw [keep1_arg3, keep0_arg3, arg3_entry0]
theorem b2_at5 (c : Dev nD) : W5 m ρ c (Proc.devRef .tc main_arg4) = (m ((c.tc : Thread nD τ).loc main_arg4)) := by
  rw [keep2_arg4, keep1_arg4, keep0_arg4, arg4_entry0]

/-- The hidden layer as the second region finds it. -/
theorem hidden_at4 (c : Dev nD) :
    W4 m ρ c (Proc.devRef .tc main_v44)
      = relu64 (conv64 (srcOf (m ((c.tc : Thread nD τ).loc main_arg5))) (dstOf (m ((c.tc : Thread nD τ).loc main_arg5))) (dinvOf (dstOf (m ((c.tc : Thread nD τ).loc main_arg5))))
          (Cert.Lib.RowColumn.rowsTimes (M := 100000) (K := 256) (N := 64) (m ((c.tc : Thread nD τ).loc main_arg0)) (m ((c.tc : Thread nD τ).loc main_arg1))) (m ((c.tc : Thread nD τ).loc main_arg2))) := by
  rw [hidden_entry1, src_at2, dst_at2, dinv_at2, product_exit0, b1_at2]

/-- The result array of the idealized kernel program, as a function of the launch memory's arguments. -/
theorem result_eq (c : Dev nD) :
    W6 m ρ c (Proc.devRef .tc main_v76)
      = network (Cert.Lib.RowColumn.rowsTimes (M := 100000) (K := 256) (N := 64)) (Cert.Lib.RowColumn.rowsTimes (M := 100000) (K := 64) (N := 40))
          (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [result_exit, src_at5, dst_at5, dinv_at5, product_exit1, hidden_at4, w2_at4, b2_at5]
  rfl

end Cert.KernelIdeal.KernelValue

end
-- ==== Proof.RefValue.lean ====
/-
  The reference's result is the network around the host's two dense products.

  The reference's run ends with its result at the composed term of its ninety-five host operations.  That term is,
  read as written, the two graph-convolution layers of `HostChain` around `x · W1` and `relu(…) · W2` computed by
  the host's general dot product: the same operations in the same order, so the equation holds by unfolding the names.
-/
import proofs.«168625_j44461501448279_1_alg».proof.Proof.Gen.ReferenceIdeal.Run
import proofs.«168625_j44461501448279_1_alg».proof.Proof.HostChain

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxRecDepth 8192 in
/-- The reference's result term is the network around the host's products. -/
theorem result_eq (m : (ℓ : Loc nD τ sig) → Buf (Elt F) ℓ) (c : Dev nD) :
    Cert.ReferenceIdeal.Value.res_main_v76 m c
      = Cert.HostChain.network
          (fun l r => Host.dotGeneral dot_S100000x256_S256x64_S100000x64_1_0_0_1_n_n none l r)
          (fun l r => Host.dotGeneral dot_S100000x64_S64x40_S100000x40_1_0_0_1_n_n none l r)
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.Value.res_main_v76 Cert.HostChain.network Cert.HostChain.conv40 Cert.HostChain.conv64
    Cert.HostChain.relu64 Cert.HostChain.normOf Cert.HostChain.dinvOf Cert.HostChain.wrap Cert.HostChain.srcOf Cert.HostChain.dstOf
  rfl

end Cert.ReferenceIdeal.RefValue

end
-- ==== Proof.Bridge.lean ====
/-
  On the extended reals the host's general dot product is the row-by-column product.

  With one contracted axis (the left operand's columns against the right operand's rows) and no batch axis, entry
  (r, q) of the host's product is the sum over k of left (r, k) · right (k, q): the same function the two kernel
  regions leave in their outputs.  So the reference's result is the network around the same two products.
-/
import proofs.«168625_j44461501448279_1_alg».proof.Proof.RefValue
import proofs.«168625_j44461501448279_1_alg».proof.Proof.Gen.ReferenceIdeal.Read
import proofs.«168625_j44461501448279_1_alg».proof.Proof.LibRowColumn
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem
open Cert.Lib.RowColumn

/-- The first layer's dense product on the host: x · W1, rows times columns. -/
theorem host_product1 :
    (fun (l : (⟨S100000x256, .f32⟩ : BufTy).Contents (Elt Ideal)) (r : (⟨S256x64, .f32⟩ : BufTy).Contents (Elt Ideal)) =>
        Host.dotGeneral (F := Ideal) (φ₁ := .f32) (φ₂ := .f32) dot_S100000x256_S256x64_S100000x64_1_0_0_1_n_n none l r)
      = rowsTimes (M := 100000) (K := 256) (N := 64) := by
  funext l r
  simp only [Host.dotGeneral]
  exact dotGeneral_eq_rowsTimes (M := 100000) (K := 256) (N := 64) dot_S100000x256_S256x64_S100000x64_1_0_0_1_n_n rfl rfl
    Cert.ReferenceIdeal.Read.lhs_main_v12_0 Cert.ReferenceIdeal.Read.lhs_main_v12_1
    Cert.ReferenceIdeal.Read.rhs_main_v12_0 Cert.ReferenceIdeal.Read.rhs_main_v12_1 _ _ l r

/-- The second layer's dense product on the host: h · W2. -/
theorem host_product2 :
    (fun (l : (⟨S100000x64, .f32⟩ : BufTy).Contents (Elt Ideal)) (r : (⟨S64x40, .f32⟩ : BufTy).Contents (Elt Ideal)) =>
        Host.dotGeneral (F := Ideal) (φ₁ := .f32) (φ₂ := .f32) dot_S100000x64_S64x40_S100000x40_1_0_0_1_n_n none l r)
      = rowsTimes (M := 100000) (K := 64) (N := 40) := by
  funext l r
  simp only [Host.dotGeneral]
  exact dotGeneral_eq_rowsTimes (M := 100000) (K := 64) (N := 40) dot_S100000x64_S64x40_S100000x40_1_0_0_1_n_n rfl rfl
    Cert.ReferenceIdeal.Read.lhs_main_v45_0 Cert.ReferenceIdeal.Read.lhs_main_v45_1
    Cert.ReferenceIdeal.Read.rhs_main_v45_0 Cert.ReferenceIdeal.Read.rhs_main_v45_1 _ _ l r

/-- The reference's result, on the extended reals: the network around the two row-by-column products. -/
theorem result_ideal (m : (ℓ : Loc nD τ sig) → Buf (Elt Ideal) ℓ) (c : Dev nD) :
    Cert.ReferenceIdeal.Value.res_main_v76 m c
      = Cert.HostChain.network (rowsTimes (M := 100000) (K := 256) (N := 64)) (rowsTimes (M := 100000) (K := 64) (N := 40))
          (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [result_eq]
  exact congrArg₂ (fun P1 P2 => Cert.HostChain.network P1 P2 _ _ _ _ _ _) host_product1 host_product2

end Cert.ReferenceIdeal.RefValue

end
-- ==== Proof.lean ====
/-
  The certificate of a two-layer graph convolution network: a Pallas kernel program against its jnp reference.

  Both programs compute  out = A·(relu(A·(x·W1) + b1)·W2) + b2,  where A is the symmetrically normalised adjacency
  with self loops, applied as "gather rows at the edge sources, scale by dinv[src]·dinv[dst], add up at the edge
  targets".  They differ only in the two dense products: the reference takes the host's general dot product of the
  whole arrays, the kernel program a pipelined matrix-product kernel over 20 row blocks of 5000 rows, with both
  operands rounded to bf16 on the way in.  On the extended reals the rounding is the identity and both products are
  the plain row-by-column sums, so the two results are one function of the arguments (no finiteness is needed: the
  two sides are the same sums in the same order, and everything around them is the same operations).

  The three frames are the generated ones (the reference's is its generated run with the result dropped); the
  ideal pass rewrote nothing, so `preserves` is trivial; the algebraic claim pairs the kernel program's run, read at
  the result (KernelRun, KernelValue over Region0 / Region1), with the reference's generated run (RefValue, Bridge).
-/
import proofs.«168625_j44461501448279_1_alg».proof.Defs
import proofs.«168625_j44461501448279_1_alg».proof.Proof.Gen.Kernel
import proofs.«168625_j44461501448279_1_alg».proof.Proof.Gen.Kernel.Frame
import proofs.«168625_j44461501448279_1_alg».proof.Proof.Gen.KernelIdeal
import proofs.«168625_j44461501448279_1_alg».proof.Proof.Gen.KernelIdeal.Frame
import proofs.«168625_j44461501448279_1_alg».proof.Proof.Gen.ReferenceIdeal
import proofs.«168625_j44461501448279_1_alg».proof.Proof.Gen.ReferenceIdeal.Run
import proofs.«168625_j44461501448279_1_alg».proof.Proof.Gen.Pre_finite_inputs
import proofs.«168625_j44461501448279_1_alg».proof.Proof.KernelRun
import proofs.«168625_j44461501448279_1_alg».proof.Proof.KernelValue
import proofs.«168625_j44461501448279_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the network around the two row-by-column products of arguments that agree. -/
theorem algebraic : Cert.algebraic_KernelIdeal_ReferenceIdeal := by
  intro m ρ m' ρ' _ hagree
  refine ⟨fun c => Cert.HostChain.network (Cert.Lib.RowColumn.rowsTimes (M := 100000) (K := 256) (N := 64))
      (Cert.Lib.RowColumn.rowsTimes (M := 100000) (K := 64) (N := 40))
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KernelValue.result_eq m ρ c), (h c).2⟩)
      (Cert.KernelIdeal.RunValue.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_ideal, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
